-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x256 : Shape := ⟨3, ![32, 8192, 256]⟩
abbrev S64x256 : Shape := ⟨2, ![64, 256]⟩
abbrev S_ : Shape := ⟨0, ![]⟩

class Facts : Prop where
  bcast_S_S32x8192x256 : S_.BroadcastsInDim S32x8192x256 (![] : Fin 0 → Fin S32x8192x256.rank)
  reducesTo_S32x8192x256_S_d0_1_2 : S32x8192x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S32x8192x256 .f32) (main_arg1 : FVec F S64x256 .f32) : IVec S_ 1 :=
  let main_v0 : FVec F S32x8192x256 .f32 := Host.absf main_arg0
  let main_cst : FVec F S_ .f32 := constant S_ .f32 0x7F800000#32
  let main_v1 : FVec F S32x8192x256 .f32 := broadcastInDim S32x8192x256 ![] bcast_S_S32x8192x256 main_cst
  let main_v2 : IVec S32x8192x256 1 := cmpf .olt main_v0 main_v1
  let main_c : IVec S_ 1 := constantI S_ 1 1#1
  let main_v3 : IVec S_ 1 := (fun x v => Host.reduce IntOp.andi x v reducesTo_S32x8192x256_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  main_v8
-- ==== Kernel.lean ====
abbrev S32x8192x256 : Shape := ⟨3, ![32, 8192, 256]⟩
abbrev S64x256 : Shape := ⟨2, ![64, 256]⟩
abbrev S32x64x256 : Shape := ⟨3, ![32, 64, 256]⟩
abbrev S1x8192x256 : Shape := ⟨3, ![1, 8192, 256]⟩
abbrev S1x64x256 : Shape := ⟨3, ![1, 64, 256]⟩
abbrev S8192x256 : Shape := ⟨2, ![8192, 256]⟩
abbrev S64x8192 : Shape := ⟨2, ![64, 8192]⟩
abbrev S8192 : Shape := ⟨1, ![8192]⟩
abbrev S1x8192 : Shape := ⟨2, ![1, 8192]⟩

abbrev nBuf : Space → Nat
  | .hbm => 3
  | .vmem => 5
  | .smem => 0
  | _ => 0

abbrev bufTy : (tb : Table) → Fin (tcTables nBuf tb) → BufTy
  | .hbm, ⟨0, _⟩ => ⟨S32x8192x256, .f32⟩
  | .hbm, ⟨1, _⟩ => ⟨S64x256, .f32⟩
  | .hbm, ⟨2, _⟩ => ⟨S32x64x256, .f32⟩
  | .local _ .vmem, ⟨0, _⟩ => ⟨S1x8192x256, .f32⟩
  | .local _ .vmem, ⟨1, _⟩ => ⟨S1x8192x256, .f32⟩
  | .local _ .vmem, ⟨2, _⟩ => ⟨S64x256, .f32⟩
  | .local _ .vmem, ⟨3, _⟩ => ⟨S1x64x256, .f32⟩
  | .local _ .vmem, ⟨4, _⟩ => ⟨S1x64x256, .f32⟩
  | _, _ => ⟨S32x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  reduces_S64x8192_S8192 : S64x8192.Reduces [0] S8192
  shapeCasts_S8192_S1x8192 : S8192.ShapeCasts S1x8192
  broadcasts_S1x8192_S64x8192 : S1x8192.Broadcasts S64x8192
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  dot_S64x256_S8192x256_S64x8192_1_1_0_0_n_n_wf : DotDims.WF S64x256 S8192x256 S64x8192 [1] [1] [0] [0] [] []
  dot_S64x8192_S8192x256_S64x256_1_0_0_1_n_n_wf : DotDims.WF S64x8192 S8192x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x256.size a ≤ S32x8192x256.size a
  hwx0_0 : ∀ i : grid0.Coords, EltTy.bits .f32 = 32 ∨ (Rect.block (s := S32x8192x256) S1x8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S32x64x256.size a
  hwx0_2 : ∀ i : grid0.Coords, EltTy.bits .f32 = 32 ∨ (Rect.block (s := S32x64x256) S1x64x256.size (cc0_transform_2 i) (hinb0_2 i)).WholeWords (EltTy.packing .f32)

variable [Facts₀]

def dot_S64x256_S8192x256_S64x8192_1_1_0_0_n_n : DotDims S64x256 S8192x256 S64x8192 where
  lhsContracting := [1]
  rhsContracting := [1]
  lhsNonContracting := [0]
  rhsNonContracting := [0]
  lhsBatch := []
  rhsBatch := []
  wf := dot_S64x256_S8192x256_S64x8192_1_1_0_0_n_n_wf
def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf

abbrev win0_0 : Pipeline.Window sig grid0 :=
  Pipeline.Window.ofSpec (Memref.whole main_arg0) S1x8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8192x256 : Shape := ⟨3, ![32, 8192, 256]⟩
abbrev S64x256 : Shape := ⟨2, ![64, 256]⟩
abbrev S32x8192x64 : Shape := ⟨3, ![32, 8192, 64]⟩
abbrev S_ : Shape := ⟨0, ![]⟩
abbrev S32x8192 : Shape := ⟨2, ![32, 8192]⟩
abbrev S32x8192x1 : Shape := ⟨3, ![32, 8192, 1]⟩
abbrev S32x64x256 : Shape := ⟨3, ![32, 64, 256]⟩

abbrev nBuf : Space → Nat
  | .hbm => 18
  | .vmem => 0
  | .smem => 0
  | _ => 0

abbrev bufTy : (tb : Table) → Fin (tcTables nBuf tb) → BufTy
  | .hbm, ⟨0, _⟩ => ⟨S32x8192x256, .f32⟩
  | .hbm, ⟨1, _⟩ => ⟨S64x256, .f32⟩
  | .hbm, ⟨2, _⟩ => ⟨S32x8192x64, .f32⟩
  | .hbm, ⟨3, _⟩ => ⟨S_, .f32⟩
  | .hbm, ⟨4, _⟩ => ⟨S32x8192, .f32⟩
  | .hbm, ⟨5, _⟩ => ⟨S_, .f32⟩
  | .hbm, ⟨6, _⟩ => ⟨S32x8192, .f32⟩
  | .hbm, ⟨7, _⟩ => ⟨S32x8192, .f32⟩
  | .hbm, ⟨8, _⟩ => ⟨S32x8192x1, .f32⟩
  | .hbm, ⟨9, _⟩ => ⟨S32x8192x64, .f32⟩
  | .hbm, ⟨10, _⟩ => ⟨S32x8192x64, .f32⟩
  | .hbm, ⟨11, _⟩ => ⟨S32x8192x64, .f32⟩
  | .hbm, ⟨12, _⟩ => ⟨S_, .f32⟩
  | .hbm, ⟨13, _⟩ => ⟨S32x8192, .f32⟩
  | .hbm, ⟨14, _⟩ => ⟨S32x8192x1, .f32⟩
  | .hbm, ⟨15, _⟩ => ⟨S32x8192x64, .f32⟩
  | .hbm, ⟨16, _⟩ => ⟨S32x8192x64, .f32⟩
  | .hbm, ⟨17, _⟩ => ⟨S32x64x256, .f32⟩
  | _, _ => ⟨S32x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S32x8192x64_S32x8192_d2 : S32x8192x64.ReducesTo [2] S32x8192
  h_S_ : 0 < S_.numel
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  bcast_S32x8192x1_S32x8192x64_0_1_2 : S32x8192x1.BroadcastsInDim S32x8192x64 (![0, 1, 2] : Fin 3 → Fin S32x8192x64.rank)
  dot_S32x8192x256_S64x256_S32x8192x64_2_1_01_0_n_n_wf : DotDims.WF S32x8192x256 S64x256 S32x8192x64 [2] [1] [0, 1] [0] [] []
  dot_S32x8192x64_S32x8192x256_S32x64x256_1_1_2_2_0_0_wf : DotDims.WF S32x8192x64 S32x8192x256 S32x64x256 [1] [1] [2] [2] [0] [0]

variable [Facts₀]

def dot_S32x8192x256_S64x256_S32x8192x64_2_1_01_0_n_n : DotDims S32x8192x256 S64x256 S32x8192x64 where
  lhsContracting := [2]
  rhsContracting := [1]
  lhsNonContracting := [0, 1]
  rhsNonContracting := [0]
  lhsBatch := []
  rhsBatch := []
  wf := dot_S32x8192x256_S64x256_S32x8192x64_2_1_01_0_n_n_wf
def dot_S32x8192x64_S32x8192x256_S32x64x256_1_1_2_2_0_0 : DotDims S32x8192x64 S32x8192x256 S32x64x256 where
  lhsContracting := [1]
  rhsContracting := [1]
  lhsNonContracting := [2]
  rhsNonContracting := [2]
  lhsBatch := [0]
  rhsBatch := [0]
  wf := dot_S32x8192x64_S32x8192x256_S32x64x256_1_1_2_2_0_0_wf

class Facts : Prop extends Facts₀ where

variable [Facts]
-- ==== Proof.SoftPool.lean ====
/-
  Soft-assignment pooling, as one function of its two arguments.

  For one batch slab `x` (8192 rows of 256 features) and 64 centers `c` (256 features each):
  the score of row `r` against center `k` is the inner product `∑ e, x r e * c k e`; a row's scores are
  shifted by their maximum over the 64 centers, exponentiated, and normalised by their sum over the centers
  (a softmax over the centers); the pooled feature `e` of center `k` is `∑ r, weight r k * x r e`.
  Everything is an extended real; no step below needs its arguments finite.
-/
import Idealize.ShloMosaic.PureOps.Ideal
import Idealize.ShloMosaic.PureOps.Ideal.Laws
import Idealize.ShloMosaic.Lib.ValueIdx

noncomputable section

namespace Cert.SoftPool

open Idealize.ShloMosaic Idealize.ShloMosaic.ValueIdx

/-- The value the maximum over the centers starts from: the pattern of minus infinity. It is never evaluated:
    a fold of `max` from any value is at least that value. -/
abbrev negInf : EReal := Ideal.ofBits .f32 0xFF800000#32

variable (x : Fin 8192 → Fin 256 → EReal) (c : Fin 64 → Fin 256 → EReal)

/-- The score of row `r` against center `k`: their inner product over the 256 features. -/
def score (r : Fin 8192) (k : Fin 64) : EReal := ∑ e : Fin 256, x r e * c k e

/-- A row's largest score over the 64 centers. -/
def rowMax (r : Fin 8192) : EReal := (Finset.univ : Finset (Fin 64)).fold max negInf (fun k => score x c r k)

/-- The exponential of a score shifted by its row's maximum. -/
def expShift (r : Fin 8192) (k : Fin 64) : EReal := Ideal.exp (score x c r k - rowMax x c r)

/-- A row's normaliser: the sum of its shifted exponentials over the centers. -/
def rowSum (r : Fin 8192) : EReal := ∑ k : Fin 64, expShift x c r k

/-- The soft assignment of row `r` to center `k`. -/
def weight (r : Fin 8192) (k : Fin 64) : EReal := Ideal.div (expShift x c r k) (rowSum x c r)

/-- Feature `e` of center `k`'s pooled read-out: the rows' features weighted by their assignment to `k`. -/
def readout (k : Fin 64) (e : Fin 256) : EReal := ∑ r : Fin 8192, weight x c r k * x r e

/-- Taking the maximum with the starting value once more changes nothing. -/
theorem max_negInf_rowMax (r : Fin 8192) : max negInf (rowMax x c r) = rowMax x c r :=
  max_eq_right ((Finset.le_fold_max _).mpr (Or.inl le_rfl))

end Cert.SoftPool

namespace Cert.SoftPool

open Idealize.ShloMosaic Idealize.ShloMosaic.ValueIdx

/-- The whole result: batch `b` of the output is the pooling of batch `b` of `X` against the shared centers. -/
def pooled (X : (⟨3, ![32, 8192, 256]⟩ : Shape).Idx → EReal) (C : (⟨2, ![64, 256]⟩ : Shape).Idx → EReal) :
    (⟨3, ![32, 64, 256]⟩ : Shape).Idx → EReal :=
  fun i => readout (fun r e => X (ix3 (i 0) r e)) (fun k e => C (ix2 k e)) (i 1) (i 2)

/-- The result at an index whose coordinates are `b`, `k`, `e`. -/
theorem pooled_apply (X : (⟨3, ![32, 8192, 256]⟩ : Shape).Idx → EReal) (C : (⟨2, ![64, 256]⟩ : Shape).Idx → EReal)
    (i : (⟨3, ![32, 64, 256]⟩ : Shape).Idx) (b : Fin 32) (k : Fin 64) (e : Fin 256)
    (hb : (i 0).val = b.val) (hk : (i 1).val = k.val) (he : (i 2).val = e.val) :
    pooled X C i = readout (fun r e => X (ix3 b r e)) (fun k e => C (ix2 k e)) k e := by
  have hi : i = ix3 b k e := funext fun a => Fin.ext (by
    match a with
    | ⟨0, _⟩ => exact hb
    | ⟨1, _⟩ => exact hk
    | ⟨2, _⟩ => exact he)
  rw [hi]
  rfl

end Cert.SoftPool

end
-- ==== Proof.RefPool.lean ====
/-
  The reference computes the soft-assignment pooling.

  Stage by stage, at explicit coordinates (batch `b`, row `r`, center `k`, feature `e`): the first contraction is the
  score; the reduction over the centers from minus infinity, and the further maximum with minus infinity, are the
  row's maximum; the subtraction and exponential the shifted exponential; the sum over the centers from zero the row's
  normaliser; the quotient the weight; and the last contraction, over the rows of one batch, the pooled feature.
-/
import proofs.«161725_j12584254177707_2_alg».proof.Proof.Gen.ReferenceIdeal.Read
import proofs.«161725_j12584254177707_2_alg».proof.Proof.SoftPool

noncomputable section

namespace Cert.ReferenceIdeal.RefPool

open Cert.ReferenceIdeal Cert.ReferenceIdeal.Gen Cert.ReferenceIdeal.Read
open Idealize.ShloMosaic Idealize.ShloMosaic.ValueIdx Cert.SoftPool

variable (X : (⟨S32x8192x256, .f32⟩ : BufTy).Contents (Elt Ideal)) (C : (⟨S64x256, .f32⟩ : BufTy).Contents (Elt Ideal))

/-- Batch `b` of the first argument, by row and feature. -/
abbrev slab (b : Fin 32) : Fin 8192 → Fin 256 → EReal := fun r e => X (ix3 b r e)
/-- The centers, by center and feature. -/
abbrev ctr : Fin 64 → Fin 256 → EReal := fun k e => C (ix2 k e)

/-- The first contraction is the score of row `r` of batch `b` against center `k`. -/
theorem scores_at (b : Fin 32) (r : Fin 8192) (k : Fin 64) :
    val_main_v0 (F := Ideal) X C (ix3 b r k) = score (slab X b) (ctr C) r k := by
  rw [val_main_v0_apply]
  unfold score
  refine Finset.sum_congr rfl fun e _ => ?_
  have el : lidx_main_v0 (ix3 b r k) e = ix3 b r e :=
    funext fun a => Fin.ext (by match a with | ⟨0, _⟩ => rfl | ⟨1, _⟩ => rfl | ⟨2, _⟩ => rfl)
  have er : ridx_main_v0 (ix3 b r k) e = ix2 k e :=
    funext fun a => Fin.ext (by match a with | ⟨0, _⟩ => rfl | ⟨1, _⟩ => rfl)
  rw [el, er]

/-- Dropping the center axis of a [32, 8192, 64] array leaves a [32, 8192] one. -/
theorem drop_centers : S32x8192x64.Reduces [2] S32x8192 := by decide

/-- The reduction over the centers, from minus infinity, is the row's maximum. -/
theorem reduced_max_at (b : Fin 32) (r : Fin 8192) :
    val_main_v1 (F := Ideal) X C (ix2 b r) = rowMax (slab X b) (ctr C) r := by
  unfold val_main_v1
  refine (Host.reduce_eq_fold_single (FloatOps.maximumf (F := Ideal) (φ := .f32)) (val_main_v0 (F := Ideal) X C)
    (val_main_cst (F := Ideal)) reducesTo_S32x8192x64_S32x8192_d2 drop_centers h_S_ (ix2 b r)).trans ?_
  unfold rowMax
  refine congrArg (fun f => (Finset.univ : Finset (Fin 64)).fold max negInf f) (funext fun k => ?_)
  show val_main_v0 (F := Ideal) X C (drop_centers.lift (ix2 b r) k) = _
  have e : drop_centers.lift (ix2 b r) k = ix3 b r k :=
    funext fun a => Fin.ext (by match a with | ⟨0, _⟩ => rfl | ⟨1, _⟩ => rfl | ⟨2, _⟩ => rfl)
  rw [e]
  exact scores_at X C b r k

/-- The further maximum with a splat of minus infinity leaves the row's maximum. -/
theorem row_max_at (b : Fin 32) (r : Fin 8192) :
    val_main_v3 (F := Ideal) X C (ix2 b r) = rowMax (slab X b) (ctr C) r := by
  rw [val_main_v3_apply, val_main_v2_apply, val_main_cst_0_apply, reduced_max_at]
  exact max_negInf_rowMax (slab X b) (ctr C) r

/-- The row's maximum broadcast back over the centers. -/
theorem row_max_bcast_at (b : Fin 32) (r : Fin 8192) (k : Fin 64) :
    val_main_v5 (F := Ideal) X C (ix3 b r k) = rowMax (slab X b) (ctr C) r := by
  rw [val_main_v5_apply, val_main_v4_apply]
  have e : idx_main_v4 (idx_main_v5 (ix3 b r k)) = ix2 b r :=
    funext fun a => Fin.ext (by match a with | ⟨0, _⟩ => rfl | ⟨1, _⟩ => rfl)
  rw [e, row_max_at]

/-- The shifted exponential. -/
theorem exp_at (b : Fin 32) (r : Fin 8192) (k : Fin 64) :
    val_main_v7 (F := Ideal) X C (ix3 b r k) = expShift (slab X b) (ctr C) r k := by
  rw [val_main_v7_apply, val_main_v6_apply, scores_at, row_max_bcast_at]
  rfl

/-- The sum over the centers, from zero, is the row's normaliser. -/
theorem row_sum_at (b : Fin 32) (r : Fin 8192) :
    val_main_v8 (F := Ideal) X C (ix2 b r) = rowSum (slab X b) (ctr C) r := by
  rw [val_main_v8_apply, val_main_cst_1_apply]
  show Ideal.ofBits .f32 0x00000000#32 + _ = _
  rw [Ideal.ofBits_zero_f32, zero_add]
  unfold rowSum
  refine Finset.sum_congr rfl fun k _ => ?_
  have e : idx_main_v8 (ix2 b r) k = ix3 b r k :=
    funext fun a => Fin.ext (by match a with | ⟨0, _⟩ => rfl | ⟨1, _⟩ => rfl | ⟨2, _⟩ => rfl)
  rw [e, exp_at]

/-- The quotient is the weight. -/
theorem weight_at (b : Fin 32) (r : Fin 8192) (k : Fin 64) :
    val_main_v11 (F := Ideal) X C (ix3 b r k) = weight (slab X b) (ctr C) r k := by
  rw [val_main_v11_apply, val_main_v10_apply, val_main_v9_apply]
  have e : idx_main_v9 (idx_main_v10 (ix3 b r k)) = ix2 b r :=
    funext fun a => Fin.ext (by match a with | ⟨0, _⟩ => rfl | ⟨1, _⟩ => rfl)
  rw [e, exp_at, row_sum_at]
  rfl

/-- The reference's result is the pooling of each batch against the centers. -/
theorem result_eq : val_main_v12 (F := Ideal) X C = pooled X C := by
  funext i
  obtain ⟨b, k, e, rfl⟩ : ∃ (b : Fin 32) (k : Fin 64) (e : Fin 256), i = ix3 b k e := ⟨i 0, i 1, i 2, eq_ix3 i⟩
  rw [val_main_v12_apply]
  show _ = readout (slab X b) (ctr C) k e
  unfold readout
  refine Finset.sum_congr rfl fun r _ => ?_
  have el : lidx_main_v12 (ix3 b k e) r = ix3 b r k :=
    funext fun a => Fin.ext (by match a with | ⟨0, _⟩ => rfl | ⟨1, _⟩ => rfl | ⟨2, _⟩ => rfl)
  have er : ridx_main_v12 (ix3 b k e) r = ix3 b r e :=
    funext fun a => Fin.ext (by match a with | ⟨0, _⟩ => rfl | ⟨1, _⟩ => rfl | ⟨2, _⟩ => rfl)
  rw [el, er, weight_at]

end Cert.ReferenceIdeal.RefPool

end
-- ==== Proof.BodyPool.lean ====
/-
  One grid point's body computes the soft-assignment pooling of its slab.

  The body holds one batch slab (a [1, 8192, 256] block) and the centers (a [64, 256] block). It forms the scores
  transposed, centers by rows ([64, 8192]): entry (k, r) is the inner product of center `k` with row `r` — the factors in
  the other order than in the specification, which multiplication on the extended reals does not mind. The maximum and
  the sum over the centers run down the columns of that matrix; the weights, still centers by rows, multiply the slab's
  rows to give the [64, 256] read-out. Changes of float format are the identity on extended reals.
-/
import proofs.«161725_j12584254177707_2_alg».proof.Proof.Gen.KernelIdeal.Skeleton
import proofs.«161725_j12584254177707_2_alg».proof.Proof.SoftPool
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyPool

open Cert.KernelIdeal Cert.KernelIdeal.Gen
open Idealize.ShloMosaic Idealize.ShloMosaic.ValueIdx Cert.SoftPool

variable (x0 : Vec Ideal S1x8192x256 .f32) (x1 : Vec Ideal S64x256 .f32)

/-! ## The body's stages, named -/

/-- The slab as an [8192, 256] matrix of rows. -/
def rows : FVec Ideal S8192x256 .bf16 :=
  truncf .bf16 (shapeCast S8192x256 x0 shapeCasts_S1x8192x256_S8192x256) bitsLt_bf16_f32
/-- The centers. -/
def cents : FVec Ideal S64x256 .bf16 := truncf .bf16 x1 bitsLt_bf16_f32
/-- The scores, centers by rows. -/
def scoresT : FVec Ideal S64x8192 .f32 :=
  matmul dot_S64x256_S8192x256_S64x8192_1_1_0_0_n_n none (cents x1) (rows x0) (constant S64x8192 .f32 0x00000000#32)
/-- Each row's largest score: the maximum down a column. -/
def colMax : FVec Ideal S8192 .f32 :=
  multiReduction .maximumf [0] S8192 (scoresT x0 x1) 0xFF800000#32 reduces_S64x8192_S8192 (.inl rfl) rfl
/-- The shifted exponentials, centers by rows. -/
def expT : FVec Ideal S64x8192 .f32 :=
  exp (subf (scoresT x0 x1) (broadcastTo S64x8192 (shapeCast S1x8192 (colMax x0 x1) shapeCasts_S8192_S1x8192) broadcasts_S1x8192_S64x8192))
/-- Each row's normaliser: the sum down a column. -/
def colSum : FVec Ideal S8192 .f32 :=
  multiReduction .add [0] S8192 (expT x0 x1) 0x00000000#32 reduces_S64x8192_S8192 (.inl rfl) rfl
/-- The weights, centers by rows. -/
def weightT : FVec Ideal S64x8192 .bf16 :=
  truncf .bf16 (divf (expT x0 x1) (broadcastTo S64x8192 (shapeCast S1x8192 (colSum x0 x1) shapeCasts_S8192_S1x8192) broadcasts_S1x8192_S64x8192)) bitsLt_bf16_f32

/-- The stored value is the weights times the rows, with a unit batch axis put in front. -/
theorem payload_eq : k0_pay1 (F := Ideal) x0 x1
    = shapeCast S1x64x256 (matmul dot_S64x8192_S8192x256_S64x256_1_0_0_1_n_n none (weightT x0 x1) (rows x0) (constant S64x256 .f32 0x00000000#32)) shapeCasts_S64x256_S1x64x256 := rfl

/-! ## The two products' operand indices -/

theorem scores_lhs0 (i : S64x8192.Idx) (q : dot_S64x256_S8192x256_S64x8192_1_1_0_0_n_n.contr.Idx) : (dot_S64x256_S8192x256_S64x8192_1_1_0_0_n_n.lhsIdx i q 0).val = (i 0).val := by
  unfold DotDims.lhsIdx
  rw [dif_neg (show ¬(0 : Fin S64x256.rank) ∈ dot_S64x256_S8192x256_S64x8192_1_1_0_0_n_n.lhsBatch by decide), dif_pos (show (0 : Fin S64x256.rank) ∈ dot_S64x256_S8192x256_S64x8192_1_1_0_0_n_n.lhsNonContracting by decide)]
  rfl
theorem scores_lhs1 (i : S64x8192.Idx) (q : dot_S64x256_S8192x256_S64x8192_1_1_0_0_n_n.contr.Idx) : (dot_S64x256_S8192x256_S64x8192_1_1_0_0_n_n.lhsIdx i q 1).val = (q ⟨0, by decide⟩).val :=
  dot_S64x256_S8192x256_S64x8192_1_1_0_0_n_n.lhsIdx_val_of_single rfl i q
theorem scores_rhs0 (i : S64x8192.Idx) (q : dot_S64x256_S8192x256_S64x8192_1_1_0_0_n_n.contr.Idx) : (dot_S64x256_S8192x256_S64x8192_1_1_0_0_n_n.rhsIdx i q 0).val = (i 1).val := by
  unfold DotDims.rhsIdx
  rw [dif_neg (show ¬(0 : Fin S8192x256.rank) ∈ dot_S64x256_S8192x256_S64x8192_1_1_0_0_n_n.rhsBatch by decide), dif_pos (show (0 : Fin S8192x256.rank) ∈ dot_S64x256_S8192x256_S64x8192_1_1_0_0_n_n.rhsNonContracting by decide)]
  rfl
theorem scores_rhs1 (i : S64x8192.Idx) (q : dot_S64x256_S8192x256_S64x8192_1_1_0_0_n_n.contr.Idx) : (dot_S64x256_S8192x256_S64x8192_1_1_0_0_n_n.rhsIdx i q 1).val = (q ⟨0, by decide⟩).val :=
  dot_S64x256_S8192x256_S64x8192_1_1_0_0_n_n.rhsIdx_val_of_single rfl i q

theorem pool_lhs0 (i : S64x256.Idx) (q : dot_S64x8192_S8192x256_S64x256_1_0_0_1_n_n.contr.Idx) : (dot_S64x8192_S8192x256_S64x256_1_0_0_1_n_n.lhsIdx i q 0).val = (i 0).val := by
  unfold DotDims.lhsIdx
  rw [dif_neg (show ¬(0 : Fin S64x8192.rank) ∈ dot_S64x8192_S8192x256_S64x256_1_0_0_1_n_n.lhsBatch by decide), dif_pos (show (0 : Fin S64x8192.rank) ∈ dot_S64x8192_S8192x256_S64x256_1_0_0_1_n_n.lhsNonContracting by decide)]
  rfl
theorem pool_lhs1 (i : S64x256.Idx) (q : dot_S64x8192_S8192x256_S64x256_1_0_0_1_n_n.contr.Idx) : (dot_S64x8192_S8192x256_S64x256_1_0_0_1_n_n.lhsIdx i q 1).val = (q ⟨0, by decide⟩).val :=
  dot_S64x8192_S8192x256_S64x256_1_0_0_1_n_n.lhsIdx_val_of_single rfl i q
theorem pool_rhs0 (i : S64x256.Idx) (q : dot_S64x8192_S8192x256_S64x256_1_0_0_1_n_n.contr.Idx) : (dot_S64x8192_S8192x256_S64x256_1_0_0_1_n_n.rhsIdx i q 0).val = (q ⟨0, by decide⟩).val :=
  dot_S64x8192_S8192x256_S64x256_1_0_0_1_n_n.rhsIdx_val_of_single rfl i q
theorem pool_rhs1 (i : S64x256.Idx) (q : dot_S64x8192_S8192x256_S64x256_1_0_0_1_n_n.contr.Idx) : (dot_S64x8192_S8192x256_S64x256_1_0_0_1_n_n.rhsIdx i q 1).val = (i 1).val := by
  unfold DotDims.rhsIdx
  rw [dif_neg (show ¬(1 : Fin S8192x256.rank) ∈ dot_S64x8192_S8192x256_S64x256_1_0_0_1_n_n.rhsBatch by decide), dif_pos (show (1 : Fin S8192x256.rank) ∈ dot_S64x8192_S8192x256_S64x256_1_0_0_1_n_n.rhsNonContracting by decide)]
  rfl

/-! ## The stages at an index -/

/-- The slab of the block, by row and feature. -/
abbrev slab : Fin 8192 → Fin 256 → EReal := fun r e => x0 (ix3 (0 : Fin 1) r e)
/-- The centers of the block, by center and feature. -/
abbrev ctr : Fin 64 → Fin 256 → EReal := fun k e => x1 (ix2 k e)

theorem rows_at (r : Fin 8192) (e : Fin 256) : rows x0 (ix2 r e) = x0 (ix3 (0 : Fin 1) r e) :=
  shapeCast_1ab_ab_apply x0 shapeCasts_S1x8192x256_S8192x256 r e

/-- Entry (k, r) of the transposed scores is the score of row `r` against center `k`. -/
theorem scoresT_at (k : Fin 64) (r : Fin 8192) : scoresT x0 x1 (ix2 k r) = score (slab x0) (ctr x1) r k := by
  unfold scoresT score
  refine (Ideal.matmul_constant_zero_apply dot_S64x256_S8192x256_S64x8192_1_1_0_0_n_n none (cents x1) (rows x0) (ix2 k r)).trans ?_
  rw [← Equiv.sum_comp (contrEquiv1 dot_S64x256_S8192x256_S64x8192_1_1_0_0_n_n 256 rfl rfl).symm]
  refine Finset.sum_congr rfl fun e _ => ?_
  have hk := contrEquiv1_symm_val dot_S64x256_S8192x256_S64x8192_1_1_0_0_n_n 256 rfl rfl e
  have el : dot_S64x256_S8192x256_S64x8192_1_1_0_0_n_n.lhsIdx (ix2 k r) ((contrEquiv1 dot_S64x256_S8192x256_S64x8192_1_1_0_0_n_n 256 rfl rfl).symm e) = ix2 k e := funext fun a => Fin.ext (by
    match a with
    | ⟨0, _⟩ => exact scores_lhs0 _ _
    | ⟨1, _⟩ => exact (scores_lhs1 _ _).trans hk)
  have er : dot_S64x256_S8192x256_S64x8192_1_1_0_0_n_n.rhsIdx (ix2 k r) ((contrEquiv1 dot_S64x256_S8192x256_S64x8192_1_1_0_0_n_n 256 rfl rfl).symm e) = ix2 r e := funext fun a => Fin.ext (by
    match a with
    | ⟨0, _⟩ => exact scores_rhs0 _ _
    | ⟨1, _⟩ => exact (scores_rhs1 _ _).trans hk)
  rw [el, er, rows_at]
  exact mul_comm _ _

/-- A column vector's entry, after the unit axis is added and the row is repeated down the centers. -/
theorem repeated_at (v : FVec Ideal S8192 .f32) (k : Fin 64) (r : Fin 8192) :
    broadcastTo S64x8192 (shapeCast S1x8192 v shapeCasts_S8192_S1x8192) broadcasts_S1x8192_S64x8192 (ix2 k r) = v (ix1 r) :=
  (broadcastTo_1b_ab_apply _ broadcasts_S1x8192_S64x8192 k r).trans (shapeCast_a_1a_apply v shapeCasts_S8192_S1x8192 0 r)

/-- The maximum down column `r` is row `r`'s largest score. -/
theorem colMax_at (r : Fin 8192) : colMax x0 x1 (ix1 r) = rowMax (slab x0) (ctr x1) r := by
  unfold colMax rowMax
  refine (Ideal.multiReduction_maximumf_single (scoresT x0 x1) 0xFF800000#32 reduces_S64x8192_S8192 (.inl rfl) rfl (ix1 r)).trans ?_
  refine congrArg (fun f => (Finset.univ : Finset (Fin 64)).fold max negInf f) (funext fun k => ?_)
  show scoresT x0 x1 (reduces_S64x8192_S8192.lift (ix1 r) k) = _
  have e : reduces_S64x8192_S8192.lift (ix1 r) k = ix2 k r :=
    funext fun a => Fin.ext (by match a with | ⟨0, _⟩ => rfl | ⟨1, _⟩ => rfl)
  rw [e]
  exact scoresT_at x0 x1 k r

theorem expT_at (k : Fin 64) (r : Fin 8192) : expT x0 x1 (ix2 k r) = expShift (slab x0) (ctr x1) r k := by
  unfold expT expShift
  show Ideal.exp (scoresT x0 x1 (ix2 k r) - broadcastTo S64x8192 (shapeCast S1x8192 (colMax x0 x1) shapeCasts_S8192_S1x8192) broadcasts_S1x8192_S64x8192 (ix2 k r)) = _
  rw [repeated_at, scoresT_at, colMax_at]

/-- The sum down column `r` is row `r`'s normaliser. -/
theorem colSum_at (r : Fin 8192) : colSum x0 x1 (ix1 r) = rowSum (slab x0) (ctr x1) r := by
  unfold colSum rowSum
  refine (Ideal.multiReduction_add_single (expT x0 x1) 0x00000000#32 reduces_S64x8192_S8192 (.inl rfl) rfl (ix1 r)).trans ?_
  refine Finset.sum_congr rfl fun k _ => ?_
  have e : reduces_S64x8192_S8192.lift (ix1 r) k = ix2 k r :=
    funext fun a => Fin.ext (by match a with | ⟨0, _⟩ => rfl | ⟨1, _⟩ => rfl)
  rw [e]
  exact expT_at x0 x1 k r

theorem weightT_at (k : Fin 64) (r : Fin 8192) : weightT x0 x1 (ix2 k r) = weight (slab x0) (ctr x1) r k := by
  unfold weightT weight
  show Ideal.div (expT x0 x1 (ix2 k r)) (broadcastTo S64x8192 (shapeCast S1x8192 (colSum x0 x1) shapeCasts_S8192_S1x8192) broadcasts_S1x8192_S64x8192 (ix2 k r)) = _
  rw [repeated_at, expT_at, colSum_at]

/-- THE BODY'S VALUE: entry (0, k, e) of what a grid point stores is feature `e` of center `k`'s read-out of the slab. -/
theorem payload_at (k : Fin 64) (e : Fin 256) :
    k0_pay1 (F := Ideal) x0 x1 (ix3 (0 : Fin 1) k e) = readout (slab x0) (ctr x1) k e := by
  rw [payload_eq]
  refine (shapeCast_ab_1ab_apply _ shapeCasts_S64x256_S1x64x256 0 k e).trans ?_
  refine (Ideal.matmul_constant_zero_apply dot_S64x8192_S8192x256_S64x256_1_0_0_1_n_n none (weightT x0 x1) (rows x0) (ix2 k e)).trans ?_
  rw [← Equiv.sum_comp (contrEquiv1 dot_S64x8192_S8192x256_S64x256_1_0_0_1_n_n 8192 rfl rfl).symm]
  unfold readout
  refine Finset.sum_congr rfl fun r _ => ?_
  have hk := contrEquiv1_symm_val dot_S64x8192_S8192x256_S64x256_1_0_0_1_n_n 8192 rfl rfl r
  have el : dot_S64x8192_S8192x256_S64x256_1_0_0_1_n_n.lhsIdx (ix2 k e) ((contrEquiv1 dot_S64x8192_S8192x256_S64x256_1_0_0_1_n_n 8192 rfl rfl).symm r) = ix2 k r := funext fun a => Fin.ext (by
    match a with
    | ⟨0, _⟩ => exact pool_lhs0 _ _
    | ⟨1, _⟩ => exact (pool_lhs1 _ _).trans hk)
  have er : dot_S64x8192_S8192x256_S64x256_1_0_0_1_n_n.rhsIdx (ix2 k e) ((contrEquiv1 dot_S64x8192_S8192x256_S64x256_1_0_0_1_n_n 8192 rfl rfl).symm r) = ix2 r e := funext fun a => Fin.ext (by
    match a with
    | ⟨0, _⟩ => exact (pool_rhs0 _ _).trans hk
    | ⟨1, _⟩ => exact pool_rhs1 _ _)
  rw [el, er, weightT_at, rows_at]

/-- The same at any index of the stored block whose last two coordinates are `k` and `e` (the first is the unit axis). -/
theorem payload_apply (y : S1x64x256.Idx) (k : Fin 64) (e : Fin 256) (hk : (y 1).val = k.val) (he : (y 2).val = e.val) :
    k0_pay1 (F := Ideal) x0 x1 y = readout (slab x0) (ctr x1) k e := by
  have hy : y = ix3 (0 : Fin 1) k e := funext fun a => Fin.ext (by
    match a with
    | ⟨0, _⟩ => have h0 : (y 0).val < 1 := (y 0).isLt; show (y 0).val = 0; omega
    | ⟨1, _⟩ => exact hk
    | ⟨2, _⟩ => exact he)
  rw [hy]
  exact payload_at x0 x1 k e

end Cert.KernelIdeal.BodyPool

end
-- ==== Proof.KernelPool.lean ====
/-
  From the grid points' blocks to the whole result array.

  Grid point `t` (of 32) reads batch `t` of the first argument — block (t, 0, 0) of blocks [1, 8192, 256] — and the whole
  of the centers, and writes back block (t, 0, 0) of the [32, 64, 256] result in blocks [1, 64, 256]. What it writes is
  the read-out of that batch, which is batch `t` of the pooled array; the 32 blocks cover the result, so after the run
  the result array is the pooled array of the two arguments.
-/
import proofs.«161725_j12584254177707_2_alg».proof.Proof.Gen.KernelIdeal.Value
import proofs.«161725_j12584254177707_2_alg».proof.Proof.BodyPool
import Idealize.ShloMosaic.Lib.Pipeline.Value
import Idealize.ShloMosaic.Lib.Tactic

set_option maxRecDepth 16384

noncomputable section

namespace Cert.KernelIdeal.KernelPool

open Cert.KernelIdeal Cert.KernelIdeal.Gen Idealize.ShloMosaic Idealize.ShloMosaic.TcCoe Idealize.SL.Sem
open Idealize.ShloMosaic.Pipeline (Dat)
open Idealize.ShloMosaic.ValueIdx Cert.SoftPool Cert.KernelIdeal.BodyPool

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The three index maps over the grid: the slab and the result move with the grid point along the batch axis, the
    centers stay. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The slab block at point `t` is batch `t` of the first argument. -/
theorem slab_read (c : Dev nD) (t : Fin cfg0.N) (y : S1x8192x256.Idx) (i : S32x8192x256.Idx)
    (h0 : (i 0).val = t.val) (h1 : (i 1).val = (y 1).val) (h2 : (i 2).val = (y 2).val) :
    (iblk m c 0 t : Vec Ideal S1x8192x256 .f32) y = V m c main_arg0 i := by
  obtain ⟨e0, e1, e2, -⟩ := block_indices t
  have hy : (y 0).val < 1 := (y 0).isLt
  unfold iblk
  rw [View.read_apply]
  show V m c main_arg0 (((cfg0.win 0).blk t).view.emb y) = V m c main_arg0 i
  refine congrArg (V m c main_arg0) (funext fun a => Fin.ext ?_)
  match a with
  | ⟨0, _⟩ => show win0_0.index t (0 : Fin 3) * 1 + 1 * (y 0).val = (i 0).val; omega
  | ⟨1, _⟩ => show win0_0.index t (1 : Fin 3) * 8192 + 1 * (y 1).val = (i 1).val; omega
  | ⟨2, _⟩ => show win0_0.index t (2 : Fin 3) * 256 + 1 * (y 2).val = (i 2).val; omega

/-- The centers block at every point is the whole second argument. -/
theorem centers_read (c : Dev nD) (t : Fin cfg0.N) (y : S64x256.Idx) (i : S64x256.Idx)
    (h0 : (i 0).val = (y 0).val) (h1 : (i 1).val = (y 1).val) :
    (iblk m c 1 t : Vec Ideal S64x256 .f32) y = V m c main_arg1 i := by
  obtain ⟨-, -, -, e0, e1, -⟩ := block_indices t
  unfold iblk
  rw [View.read_apply]
  show V m c main_arg1 (((cfg0.win 1).blk t).view.emb y) = V m c main_arg1 i
  refine congrArg (V m c main_arg1) (funext fun a => Fin.ext ?_)
  match a with
  | ⟨0, _⟩ => show win0_1.index t (0 : Fin 2) * 64 + 1 * (y 0).val = (i 0).val; omega
  | ⟨1, _⟩ => show win0_1.index t (1 : Fin 2) * 256 + 1 * (y 1).val = (i 1).val; omega

/-- WHAT POINT `t` WRITES BACK is block `t` of the pooled array of the arguments as the region finds them. -/
theorem flushed_eq (c : Dev nD) (t : Fin cfg0.N) :
    (dats m 0 c).flushed 2 t = ((cfg0.win 2).blk t).view.read (Elt Ideal) (pooled (V m c main_arg0) (V m c main_arg1)) := by
  rw [Cert.KernelIdeal.Value.flushed2]
  unfold out0_2
  rw [View.canon_unit_zero zero3]
  simp only [View.ld_unit_zero (S := S1x8192x256) zero3, View.ld_unit_zero (S := S64x256) zero2]
  obtain ⟨-, -, -, -, -, e0, e1, e2⟩ := block_indices t
  have hN : t.val < 32 := Nat.lt_of_lt_of_eq t.isLt (show cfg0.N = 32 from N_0)
  funext j
  have hj0 : (j 0).val < 1 := (j 0).isLt
  have hj1 : (j 1).val < 64 := (j 1).isLt
  have hj2 : (j 2).val < 256 := (j 2).isLt
  show k0_pay1 (F := Ideal) (iblk m c 0 t) (iblk m c 1 t) j
    = pooled (V m c main_arg0) (V m c main_arg1) (((cfg0.win 2).blk t).view.emb j)
  refine (payload_apply (iblk m c 0 t) (iblk m c 1 t) j ⟨(j 1).val, hj1⟩ ⟨(j 2).val, hj2⟩ rfl rfl).trans ?_
  refine Eq.trans ?_ (pooled_apply (V m c main_arg0) (V m c main_arg1) _ ⟨t.val, hN⟩ ⟨(j 1).val, hj1⟩ ⟨(j 2).val, hj2⟩ ?_ ?_ ?_).symm
  · have hs : slab (iblk m c 0 t) = fun r e => V m c main_arg0 (ix3 (⟨t.val, hN⟩ : Fin 32) r e) :=
      funext fun r => funext fun e => slab_read m c t _ _ rfl rfl rfl
    have hc : ctr (iblk m c 1 t) = fun k e => V m c main_arg1 (ix2 k e) :=
      funext fun k => funext fun e => centers_read m c t _ _ rfl rfl
    rw [hs, hc]
  · show win0_2.index t (0 : Fin 3) * 1 + 1 * (j 0).val = t.val; omega
  · show win0_2.index t (1 : Fin 3) * 64 + 1 * (j 1).val = (j 1).val; omega
  · show win0_2.index t (2 : Fin 3) * 256 + 1 * (j 2).val = (j 2).val; omega

/-- An index of the result is in point `t`'s block iff each coordinate is in the block's range on its axis. -/
theorem mem_blk (t : Fin cfg0.N) (i : S32x64x256.Idx) :
    i ∈ ((cfg0.win 2).blk t).view.set ↔ ∀ a : Fin 3, win0_2.index t a * S1x64x256.size a ≤ (i a).val ∧ (i a).val < win0_2.index t a * S1x64x256.size a + S1x64x256.size a := by
  show i ∈ ((View.whole main_v0).slice (win0_2.rect t)).set ↔ _
  rw [View.set_slice_whole, Rect.mem_set_unit]
  exact Iff.rfl

/-- Every index of the result lies in the block of the grid point named by its batch coordinate. -/
theorem covered (i : S32x64x256.Idx) :
    ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 256 := (i 2).isLt
  obtain ⟨t, ht⟩ : ∃ t : Fin cfg0.N, t.val = (i 0).val := ⟨⟨(i 0).val, by rw [show cfg0.N = 32 from N_0]; exact hi0⟩, rfl⟩
  obtain ⟨-, -, -, -, -, e0, e1, e2⟩ := block_indices t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 256 ≤ (i 2).val ∧ (i 2).val < win0_2.index t (2 : Fin 3) * 256 + 256; omega

/-- THE RESULT ARRAY after the run is the pooled array of the two arguments. -/
theorem final (c : Dev nD) : (dats m 0 c).arrAt 2 cfg0.N
    = pooled (m ((c : Thread nD τ).loc main_arg0)) (m ((c : Thread nD τ).loc main_arg1)) :=
  (dats m 0 c).arrAt_eq_of_cover 2 (pooled (V m c main_arg0) (V m c main_arg1)) (fun t _ => flushed_eq m c t) covered

/-- The kernel's run, read: the result at the pooled array, the arguments unchanged. -/
theorem run : θ_run defs (onTc (τ := τ) (main (F := Ideal))) ⟨m, fun _ => 0, ρ⟩ fun r => ∀ c : Dev nD,
      r.2.mem ((c : Thread nD τ).loc main_v0) = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.KernelPool

end
-- ==== Proof.lean ====
/-
  The kernel against its reference: soft-assignment pooling.

  Both programs score every row of a batch against 64 centers (an inner product over 256 features), turn each row's
  scores into weights by a softmax over the centers (shift by the row's maximum, exponentiate, divide by the sum),
  and pool the rows' features by those weights, batch by batch. Read over the extended reals they are one function of
  the two arguments, `Cert.SoftPool.pooled`: the kernel computes it one batch per grid point, with the scores laid out
  centers by rows and the inner product's factors in the other order; the reference computes it whole, and takes one
  more maximum with minus infinity, which changes nothing. No step uses that the inputs are finite.

  The three frames are the generated ones (the reference's is its run with the result dropped); the kernel's idealization
  rewrote no operation, so there is nothing to preserve; the algebraic claim sets the kernel's run
  (`KernelPool.run`) beside the reference's (`RefPool.result_eq`).
-/
import proofs.«161725_j12584254177707_2_alg».proof.Defs
import proofs.«161725_j12584254177707_2_alg».proof.Proof.Gen.Kernel
import proofs.«161725_j12584254177707_2_alg».proof.Proof.Gen.Kernel.Skeleton
import proofs.«161725_j12584254177707_2_alg».proof.Proof.Gen.Kernel.Launch
import proofs.«161725_j12584254177707_2_alg».proof.Proof.Gen.Kernel.Points
import proofs.«161725_j12584254177707_2_alg».proof.Proof.Gen.Kernel.Frame
import proofs.«161725_j12584254177707_2_alg».proof.Proof.Gen.KernelIdeal
import proofs.«161725_j12584254177707_2_alg».proof.Proof.Gen.KernelIdeal.Skeleton
import proofs.«161725_j12584254177707_2_alg».proof.Proof.Gen.KernelIdeal.Launch
import proofs.«161725_j12584254177707_2_alg».proof.Proof.Gen.KernelIdeal.Points
import proofs.«161725_j12584254177707_2_alg».proof.Proof.Gen.KernelIdeal.Frame
import proofs.«161725_j12584254177707_2_alg».proof.Proof.Gen.ReferenceIdeal
import proofs.«161725_j12584254177707_2_alg».proof.Proof.Gen.Pre_finite_inputs
import proofs.«161725_j12584254177707_2_alg».proof.Proof.Gen.KernelIdeal.Value
import proofs.«161725_j12584254177707_2_alg».proof.Proof.Gen.ReferenceIdeal.Run
import proofs.«161725_j12584254177707_2_alg».proof.Proof.Gen.ReferenceIdeal.Read
import proofs.«161725_j12584254177707_2_alg».proof.Proof.SoftPool
import proofs.«161725_j12584254177707_2_alg».proof.Proof.RefPool
import proofs.«161725_j12584254177707_2_alg».proof.Proof.BodyPool
import proofs.«161725_j12584254177707_2_alg».proof.Proof.KernelPool
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the pooled array of their (agreeing) arguments. -/
theorem algebraic : Cert.algebraic_KernelIdeal_ReferenceIdeal := by
  intro m ρ m' ρ' _ hagree
  refine ⟨fun c => Cert.SoftPool.pooled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelPool.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefPool.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
